-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x640000 : Shape := ⟨2, ![2, 640000]⟩
abbrev S512x128 : Shape := ⟨2, ![512, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S50000x512 .f32) (main_arg1 : IVec S2x640000 32) (main_arg2 : FVec F S512x128 .f32) (main_arg3 : FVec F S128 .f32) (main_arg4 : FVec F S128x8 .f32) (main_arg5 : FVec F S8 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg4
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg5 main_v13 main_v16
-- ==== Kernel.lean ====
abbrev S50000x512 : Shape := ⟨2, ![50000, 512]⟩
abbrev S2x640000 : Shape := ⟨2, ![2, 640000]⟩
abbrev S512x128 : Shape := ⟨2, ![512, 128]⟩
abbrev S128 : Shape := ⟨1, ![128]⟩
abbrev S128x8 : Shape := ⟨2, ![128, 8]⟩
abbrev S8 : Shape := ⟨1, ![8]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S2000x512 : Shape := ⟨2, ![2000, 512]⟩
abbrev S2000x128 : Shape := ⟨2, ![2000, 128]⟩
abbrev S690000x128 : Shape := ⟨2, ![690000, 128]⟩
abbrev S1x128 : Shape := ⟨2, ![1, 128]⟩
abbrev S1x8 : Shape := ⟨2, ![1, 8]⟩
abbrev S50000x8 : Shape := ⟨2, ![50000, 8]⟩
abbrev S5000x128 : Shape := ⟨2, ![5000, 128]⟩
abbrev S5000x8 : Shape := ⟨2, ![5000, 8]⟩

abbrev nBuf : Space → Nat
  | .hbm => 68
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2x640000, .i32⟩
  | .hbm, ⟨2, _⟩ => ⟨S512x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S690000, .i32⟩
  | .hbm, ⟨29, _⟩ => ⟨S690000, .i1⟩
  | .hbm, ⟨30, _⟩ => ⟨S_, .i32⟩
  | .hbm, ⟨31, _⟩ => ⟨S690000, .i32⟩
  | .hbm, ⟨32, _⟩ => ⟨S690000, .i32⟩
  | .hbm, ⟨33, _⟩ => ⟨S690000, .i32⟩
  | .hbm, ⟨34, _⟩ => ⟨S690000x1, .i32⟩
  | .hbm, ⟨35, _⟩ => ⟨S690000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S690000, .f32⟩
  | .hbm, ⟨46, _⟩ => ⟨S512x128, .bf16⟩
  | .hbm, ⟨47, _⟩ => ⟨S50000x128, .f32⟩
  | .hbm, ⟨48, _⟩ => ⟨S_, .i32⟩
  | .hbm, ⟨49, _⟩ => ⟨S690000, .i32⟩
  | .hbm, ⟨50, _⟩ => ⟨S690000, .i1⟩
  | .hbm, ⟨51, _⟩ => ⟨S_, .i32⟩
  | .hbm, ⟨52, _⟩ => ⟨S690000, .i32⟩
  | .hbm, ⟨53, _⟩ => ⟨S690000, .i32⟩
  | .hbm, ⟨54, _⟩ => ⟨S690000, .i32⟩
  | .hbm, ⟨55, _⟩ => ⟨S690000x1, .i32⟩
  | .hbm, ⟨56, _⟩ => ⟨S690000x128, .f32⟩
  | .hbm, ⟨57, _⟩ => ⟨S690000x1, .f32⟩
  | .hbm, ⟨58, _⟩ => ⟨S690000x128, .f32⟩
  | .hbm, ⟨59, _⟩ => ⟨S690000x128, .f32⟩
  | .hbm, ⟨60, _⟩ => ⟨S_, .f32⟩
  | .hbm, ⟨61, _⟩ => ⟨S50000x128, .f32⟩
  | .hbm, ⟨62, _⟩ => ⟨S690000x1, .i32⟩
  | .hbm, ⟨63, _⟩ => ⟨S50000x128, .f32⟩
  | .hbm, ⟨64, _⟩ => ⟨S1x128, .f32⟩
  | .hbm, ⟨65, _⟩ => ⟨S1x8, .f32⟩
  | .hbm, ⟨66, _⟩ => ⟨S128x8, .bf16⟩
  | .hbm, ⟨67, _⟩ => ⟨S50000x8, .f32⟩
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x8, .bf16⟩
  | .local _ .vmem, ⟨9, _⟩ => ⟨S1x8, .f32⟩
  | .local _ .vmem, ⟨10, _⟩ => ⟨S5000x8, .f32⟩
  | .local _ .vmem, ⟨11, _⟩ => ⟨S5000x8, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x8 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S8_S1x8 : S8.ShapeCasts S1x8
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2000x512_S512x128_S2000x128_1_0_0_1_n_n_wf : DotDims.WF S2000x512 S512x128 S2000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .bf16 = 32 ∨ (Rect.block (s := S128x8) S128x8.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S50000x8.size a
  hwx1_4 : ∀ i : grid1.Coords, EltTy.bits .f32 = 32 ∨ (Rect.block (s := S50000x8) S5000x8.size (cc1_transform_4 i) (hinb1_4 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x640000 : Shape := ⟨2, ![2, 640000]⟩
abbrev S512x128 : Shape := ⟨2, ![512, 128]⟩
abbrev S128 : Shape := ⟨1, ![128]⟩
abbrev S128x8 : Shape := ⟨2, ![128, 8]⟩
abbrev S8 : Shape := ⟨1, ![8]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S690000x128 : Shape := ⟨2, ![690000, 128]⟩
abbrev S1x128 : Shape := ⟨2, ![1, 128]⟩
abbrev S50000x8 : Shape := ⟨2, ![50000, 8]⟩
abbrev S1x8 : Shape := ⟨2, ![1, 8]⟩

abbrev nBuf : Space → Nat
  | .hbm => 70
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x640000, .i32⟩
  | .hbm, ⟨2, _⟩ => ⟨S512x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S50000, .i32⟩
  | .hbm, ⟨7, _⟩ => ⟨S1x640000, .i32⟩
  | .hbm, ⟨8, _⟩ => ⟨S640000, .i32⟩
  | .hbm, ⟨9, _⟩ => ⟨S690000, .i32⟩
  | .hbm, ⟨10, _⟩ => ⟨S1x640000, .i32⟩
  | .hbm, ⟨11, _⟩ => ⟨S640000, .i32⟩
  | .hbm, ⟨12, _⟩ => ⟨S690000, .i32⟩
  | .hbm, ⟨13, _⟩ => ⟨S_, .f32⟩
  | .hbm, ⟨14, _⟩ => ⟨S690000, .f32⟩
  | .hbm, ⟨15, _⟩ => ⟨S_, .f32⟩
  | .hbm, ⟨16, _⟩ => ⟨S50000, .f32⟩
  | .hbm, ⟨17, _⟩ => ⟨S690000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S690000, .i32⟩
  | .hbm, ⟨29, _⟩ => ⟨S690000, .i1⟩
  | .hbm, ⟨30, _⟩ => ⟨S_, .i32⟩
  | .hbm, ⟨31, _⟩ => ⟨S690000, .i32⟩
  | .hbm, ⟨32, _⟩ => ⟨S690000, .i32⟩
  | .hbm, ⟨33, _⟩ => ⟨S690000, .i32⟩
  | .hbm, ⟨34, _⟩ => ⟨S690000x1, .i32⟩
  | .hbm, ⟨35, _⟩ => ⟨S690000, .f32⟩
  | .hbm, ⟨36, _⟩ => ⟨S_, .i32⟩
  | .hbm, ⟨37, _⟩ => ⟨S690000, .i32⟩
  | .hbm, ⟨38, _⟩ => ⟨S690000, .i1⟩
  | .hbm, ⟨39, _⟩ => ⟨S_, .i32⟩
  | .hbm, ⟨40, _⟩ => ⟨S690000, .i32⟩
  | .hbm, ⟨41, _⟩ => ⟨S690000, .i32⟩
  | .hbm, ⟨42, _⟩ => ⟨S690000, .i32⟩
  | .hbm, ⟨43, _⟩ => ⟨S690000x1, .i32⟩
  | .hbm, ⟨44, _⟩ => ⟨S690000, .f32⟩
  | .hbm, ⟨45, _⟩ => ⟨S690000, .f32⟩
  | .hbm, ⟨46, _⟩ => ⟨S50000x128, .f32⟩
  | .hbm, ⟨47, _⟩ => ⟨S_, .i32⟩
  | .hbm, ⟨48, _⟩ => ⟨S690000, .i32⟩
  | .hbm, ⟨49, _⟩ => ⟨S690000, .i1⟩
  | .hbm, ⟨50, _⟩ => ⟨S_, .i32⟩
  | .hbm, ⟨51, _⟩ => ⟨S690000, .i32⟩
  | .hbm, ⟨52, _⟩ => ⟨S690000, .i32⟩
  | .hbm, ⟨53, _⟩ => ⟨S690000, .i32⟩
  | .hbm, ⟨54, _⟩ => ⟨S690000x1, .i32⟩
  | .hbm, ⟨55, _⟩ => ⟨S690000x128, .f32⟩
  | .hbm, ⟨56, _⟩ => ⟨S690000x1, .f32⟩
  | .hbm, ⟨57, _⟩ => ⟨S690000x128, .f32⟩
  | .hbm, ⟨58, _⟩ => ⟨S690000x128, .f32⟩
  | .hbm, ⟨59, _⟩ => ⟨S_, .f32⟩
  | .hbm, ⟨60, _⟩ => ⟨S50000x128, .f32⟩
  | .hbm, ⟨61, _⟩ => ⟨S690000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x8, .f32⟩
  | .hbm, ⟨67, _⟩ => ⟨S1x8, .f32⟩
  | .hbm, ⟨68, _⟩ => ⟨S50000x8, .f32⟩
  | .hbm, ⟨69, _⟩ => ⟨S50000x8, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x512_S512x128_S50000x128_1_0_0_1_n_n_wf : DotDims.WF S50000x512 S512x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x8_S50000x8_1_0_0_1_n_n_wf : DotDims.WF S50000x128 S128x8 S50000x8 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.KernelRun.lean ====
/-
  The idealized kernel program's run with its result array named.

  The program is two pipelined matrix-product regions among stretches of host operations. Its run is the chain of
  those segments; the buffer contents at each boundary are a fold through the program (the contents after each
  stretch of host operations, and after each region the region's arrays as its write-backs leave them). At the end
  every unscoped buffer holds the last boundary's contents, so the final memory at the result buffer is the last
  boundary's contents there, and each argument is as launched.
-/
import proofs.«137388_j90374701843042_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the final memory holds, at the result
    buffer, the last boundary's contents there, and every argument array is as launched. -/
theorem run_out : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.EdgeK.lean ====
/-
  The graph side of the kernel program, named: from the edge list, the source and target node of every edge (self
  loops appended), the degrees, the edge normalisation, and the propagation step that gathers, scales and adds feature
  rows along the edges. These are the program's own host operations composed; nothing here opens them.
-/
import proofs.«137388_j90374701843042_1_alg».proof.Proof.Gen.KernelIdeal
import Idealize.ShloMosaic.PureOps.Ideal

noncomputable section

namespace Cert.KernelIdeal.Edge

open Idealize.ShloMosaic Cert.KernelIdeal Cert.KernelIdeal.Gen

/-- The edge list as the program receives it: two rows of 640000 node numbers. -/
abbrev EdgeIx : Type := (⟨S2x640000, .i32⟩ : BufTy).Contents (Elt Ideal)

/-- Source nodes: the first row of the edge list followed by every node once (the self loops). -/
def src (E : EdgeIx) :=
  concatenate S690000 0 [⟨S640000, shapeCast _ (extractStridedSlice S1x640000 ![0, 0] E slices_S2x640000_S1x640000_0_0) shapeCasts_S1x640000_S640000⟩, ⟨S50000, iotaInDim S50000 32 0⟩] concatenates_S640000_S50000_S690000_d0

/-- Target nodes: the second row of the edge list followed by every node once. -/
def dst (E : EdgeIx) :=
  concatenate S690000 0 [⟨S640000, shapeCast _ (extractStridedSlice S1x640000 ![1, 0] E slices_S2x640000_S1x640000_1_0) shapeCasts_S1x640000_S640000⟩, ⟨S50000, iotaInDim S50000 32 0⟩] concatenates_S640000_S50000_S690000_d0

/-- In-degree with self loops: one added at each edge's target. -/
def deg (E : EdgeIx) : FVec Ideal S50000 .f32 :=
  Host.scatterAdd (F := Ideal) scatter_S50000_S690000x1_S690000_n_0_0_1
    (broadcastInDim S50000 ![] bcast_S_S50000 (constant (F := Ideal) S_ .f32 0x00000000#32))
    (broadcastInDim S690000x1 ![0] bcast_S690000_S690000x1_0 (dst E))
    (broadcastInDim S690000 ![] bcast_S_S690000 (constant (F := Ideal) S_ .f32 0x3F800000#32))

/-- The inverse square root of the degree where it is positive, zero elsewhere. -/
def dinv (E : EdgeIx) : FVec Ideal S50000 .f32 :=
  select (cmpf (F := Ideal) .ogt (deg E) (broadcastInDim S50000 ![] bcast_S_S50000 (constant (F := Ideal) S_ .f32 0x00000000#32)))
    (Host.rsqrt (F := Ideal) (deg E))
    (broadcastInDim S50000 ![] bcast_S_S50000 (id (constant (F := Ideal) S_ .f32 0x00000000#32)))

/-- A negative node number counted from the end, as array indexing reads it. -/
def wrap (v : (⟨S690000, .i32⟩ : BufTy).Contents (Elt Ideal)) :=
  select (cmpi .slt v (broadcastInDim S690000 ![] bcast_S_S690000 (constantI S_ 32 0#32)))
    (addi v (broadcastInDim S690000 ![] bcast_S_S690000 (constantI S_ 32 50000#32))) v

/-- The symmetric normalisation of each edge: the two end points' inverse square-root degrees multiplied. -/
def norm (E : EdgeIx) : FVec Ideal S690000 .f32 :=
  mulf (Host.gather gather_S50000_S690000x1_S690000_n_0_n_n_0_1_1 (dinv E)
        (broadcastInDim S690000x1 ![0] bcast_S690000_S690000x1_0 (wrap (src E))))
    (Host.gather gather_S50000_S690000x1_S690000_n_0_n_n_0_1_1 (dinv E)
        (broadcastInDim S690000x1 ![0] bcast_S690000_S690000x1_0 (wrap (dst E))))

/-- The propagation step: every edge carries its source's feature row, scaled by the edge's normalisation, to its
    target, where the arriving rows are added up. -/
def agg (E : EdgeIx) (h : FVec Ideal S50000x128 .f32) : FVec Ideal S50000x128 .f32 :=
  Host.scatterAdd (F := Ideal) scatter_S50000x128_S690000x1_S690000x128_1_0_0_1
    (broadcastInDim S50000x128 ![] bcast_S_S50000x128 (constant (F := Ideal) S_ .f32 0x00000000#32))
    (broadcastInDim S690000x1 ![0] bcast_S690000_S690000x1_0 (dst E))
    (mulf (Host.gather gather_S50000x128_S690000x1_S690000x128_1_0_n_n_0_1_1128 h
        (broadcastInDim S690000x1 ![0] bcast_S690000_S690000x1_0 (wrap (src E))))
      (broadcastInDim S690000x128 ![0, 1] bcast_S690000x1_S690000x128_0_1
        (broadcastInDim S690000x1 ![0] bcast_S690000_S690000x1_0 (norm E))))

end Cert.KernelIdeal.Edge

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«137388_j90374701843042_1_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«137388_j90374701843042_1_alg».proof.Proof.LibPlainDot
import proofs.«137388_j90374701843042_1_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«137388_j90374701843042_1_alg».proof.Proof.LibPlainDot
import proofs.«137388_j90374701843042_1_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.Payloads.lean ====
/-
  What each of the two kernel bodies stores, over the extended reals, as whole-tile functions of its loaded tiles.

  The first body stores its tile of rows times the weight matrix. The second adds the one-row bias to every row of its
  tile, multiplies the rows by the weight matrix, and adds the second one-row bias to every row of the product. A change
  of float format on the way into a product is the identity over the extended reals, and a product into a zero
  accumulator is the plain rows-by-columns sum.
-/
import proofs.«137388_j90374701843042_1_alg».proof.Proof.Gen.KernelIdeal.Skeleton
import proofs.«137388_j90374701843042_1_alg».proof.Proof.LibPlainDot
import proofs.«137388_j90374701843042_1_alg».proof.Proof.LibRowLayers
import proofs.«137388_j90374701843042_1_alg».proof.Proof.LibRowTile
import Idealize.ShloMosaic.Lib.Pipeline.Value

noncomputable section

namespace Cert.KernelIdeal.Tile

open Idealize.ShloMosaic Idealize.ShloMosaic.ValueIdx
open Cert.KernelIdeal Cert.KernelIdeal.Gen Cert.Layers Cert.RowTile

theorem plain0 : LibPlainDot.Plain dot_S2000x512_S512x128_S2000x128_1_0_0_1_n_n := ⟨rfl, rfl, rfl, rfl, rfl, rfl⟩
theorem plain1 : LibPlainDot.Plain dot_S5000x128_S128x8_S5000x8_1_0_0_1_n_n := ⟨rfl, rfl, rfl, rfl, rfl, rfl⟩

/-- The first body's stored tile: each loaded row times the weight matrix. -/
theorem pay0_eq (x0 : FVec Ideal S2000x512 .f32) (x1 : FVec Ideal S512x128 .bf16) :
    k0_pay1 (F := Ideal) x0 x1 = rowsTimes (M := 2000) (K := 512) (N := 128) x0 x1 := by
  unfold k0_pay1
  dsimp only
  rw [shapeCast_self, truncf_eq]
  exact matmul_zero_eq _ plain0 none x0 x1

/-- The second body's stored tile: the loaded rows plus the first bias row, times the weight matrix, plus the second
    bias row. -/
theorem pay1_eq (x0 : FVec Ideal S5000x128 .f32) (x1 : FVec Ideal S1x128 .f32) (x2 : FVec Ideal S128x8 .bf16)
    (x3 : FVec Ideal S1x8 .f32) :
    k1_pay1 (F := Ideal) x0 x1 x2 x3
      = addRow (M := 5000) (N := 8) (rowsTimes (M := 5000) (K := 128) (N := 8) (addRow (M := 5000) (N := 128) x0 (rowVec x1)) x2) (rowVec x3) := by
  unfold k1_pay1
  dsimp only
  rw [shapeCast_self, shapeCast_self, shapeCast_self, shapeCast_self, truncf_eq, addf_bcastRow x0 x1, addf_bcastRow _ x3]
  exact congrArg (fun y => addRow (M := 5000) (N := 8) y (rowVec x3))
    (matmul_zero_eq (φ₁ := .bf16) (φ₂ := .bf16) _ plain1 none (addRow (M := 5000) (N := 128) x0 (rowVec x1)) x2)

end Cert.KernelIdeal.Tile

end
-- ==== Proof.Region0.lean ====
/-
  The first region's result array as one function of the arrays the region finds.

  The region walks twenty-five tiles of 2000 rows. At tile t it loads rows 2000·t … 2000·t + 1999 of the node features and
  the whole weight matrix, and writes back, as rows 2000·t … of the result, the loaded rows times the matrix. An entry of a
  product depends only on its own row of the left operand, so every tile is the restriction of the product of the whole
  arrays; the tiles cover the array, so the array ends holding that product.
-/
import proofs.«137388_j90374701843042_1_alg».proof.Proof.Gen.KernelIdeal.Frame
import proofs.«137388_j90374701843042_1_alg».proof.Proof.Payloads
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Layers Cert.RowTile Cert.KernelIdeal.Tile

variable (V : (c : Dev nD) → (b : Ref sig .tc) → Buf (Elt Ideal) ((c : Thread nD τ).loc b))

/-- The dense transform on the whole array: every node's feature row times the weight matrix. -/
def out (x : S50000x512.Idx → EReal) (w : S512x128.Idx → EReal) : S50000x128.Idx → EReal :=
  rowsTimes (M := 50000) (K := 512) (N := 128) x w

/-- The printed index maps over the grid: the row tiles move with the point, the weight matrix stays at block 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The loaded tile of feature rows: its row p is row 2000·t + p of the array. -/
theorem blk0_apply (c : Dev nD) (t : Fin cfg0.N) (p : Fin 2000) (k : Fin 512) (r : Fin 50000) (hr : r.val = 2000 * t.val + p.val) :
    (iblk0 V c 0 t : S2000x512.Idx → EReal) (ix2 p k) = (V c main_arg0 : S50000x512.Idx → EReal) (ix2 r k) := by
  obtain ⟨e0, e1, -⟩ := idx t
  unfold iblk0
  rw [View.read_apply]
  show (V c main_arg0 : S50000x512.Idx → EReal) _ = (V c main_arg0 : S50000x512.Idx → EReal) _
  refine congrArg (V c main_arg0 : S50000x512.Idx → EReal) ?_
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The weight matrix is loaded whole at every point. -/
theorem blk1_eq (c : Dev nD) (t : Fin cfg0.N) : (iblk0 V c 1 t : S512x128.Idx → EReal) = (V c main_v30 : S512x128.Idx → EReal) := by
  obtain ⟨-, -, e0, e1, -⟩ := idx t
  funext x
  unfold iblk0
  rw [View.read_apply]
  show (V c main_v30 : S512x128.Idx → EReal) _ = (V c main_v30 : S512x128.Idx → EReal) x
  refine congrArg (V c main_v30 : S512x128.Idx → EReal) ?_
  funext a
  apply Fin.ext
  match a with
  | ⟨0, _⟩ => show win0_1.index t (0 : Fin 2) * 512 + 1 * (x 0).val = (x 0).val; rw [e0]; omega
  | ⟨1, _⟩ => show win0_1.index t (1 : Fin 2) * 128 + 1 * (x 1).val = (x 1).val; rw [e1]; omega

/-- What point t writes back is tile t of the product of the whole arrays the region finds. -/
theorem flushed_eq (c : Dev nD) (t : Fin cfg0.N) :
    (dat0 V c).flushed 2 t = ((cfg0.win 2).blk t).view.read (Elt Ideal) (out (V c main_arg0) (V c main_v30)) := by
  have ht : t.val < 25 := Nat.lt_of_lt_of_eq t.isLt (show cfg0.N = 25 from N_0)
  obtain ⟨-, -, -, -, e4, e5⟩ := idx t
  show (cfg0.win 2).cut (grid0.coords t) ((dat0 V c).after 2 t) = _
  rw [after0_2]
  unfold out0_2
  rw [View.canon_unit_zero zeros2]
  simp only [View.ld_unit_zero (S := S2000x512) zeros2, View.ld_unit_zero (S := S512x128) zeros2]
  funext j
  rw [View.read_apply]
  show k0_pay1 (F := Ideal) (iblk0 V c 0 t) (iblk0 V c 1 t) j
    = out (V c main_arg0) (V c main_v30) (((cfg0.win 2).blk t).view.emb j)
  refine (congrFun (pay0_eq (iblk0 V c 0 t) (iblk0 V c 1 t)) j).trans ?_
  rw [blk1_eq V c t]
  obtain ⟨p, q, rfl⟩ : ∃ (p : Fin 2000) (q : Fin 128), j = ix2 p q := ⟨j 0, j 1, eq_ix2 j⟩
  have hemb : ((cfg0.win 2).blk t).view.emb (ix2 p q) = (ix2 (⟨2000 * t.val + p.val, by omega⟩ : Fin 50000) q : S50000x128.Idx) := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 128 + 1 * q.val = q.val; rw [e5]; omega
  rw [hemb]
  exact rowsTimes_row _ _ _ p _ (fun k => blk0_apply V c t p k _ rfl) q

/-- An index of the result array is in point t's tile iff each coordinate is in the tile's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v31).slice (win0_2.rect t)).set ↔ _
  rw [View.set_slice_whole, Rect.mem_set_unit]
  exact Iff.rfl

/-- Every row of the result lies in the tile of the point row / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, htv⟩ : ∃ t : Fin cfg0.N, t.val = (i 0).val / 2000 := ⟨⟨(i 0).val / 2000, by rw [hN]; omega⟩, rfl⟩
  obtain ⟨-, -, -, -, e4, e5⟩ := idx t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e4, htv]; omega
  | ⟨1, _⟩ =>
    show win0_2.index t (1 : Fin 2) * 128 ≤ (i 1).val ∧ (i 1).val < win0_2.index t (1 : Fin 2) * 128 + 128
    rw [e5]; omega

/-- After the region the result array is the product of the whole arrays the region found. -/
theorem final (c : Dev nD) : (dat0 V c).arrAt 2 cfg0.N = out (V c main_arg0) (V c main_v30) :=
  (dat0 V c).arrAt_eq_of_cover 2 _ (fun t _ => flushed_eq V c t) cover

end Cert.KernelIdeal.Region0

end
-- ==== Proof.Region1.lean ====
/-
  The second region's result array as one function of the arrays the region finds.

  The region walks ten tiles of 5000 rows. At tile t it loads rows 5000·t … 5000·t + 4999 of the aggregated features
  and the whole of the two bias rows and of the weight matrix, and writes back, as rows 5000·t … of the result, the
  loaded rows plus the first bias row, times the weight matrix, plus the second bias row. An entry of a dense layer
  depends only on its own row of the left operand, so every tile is the restriction of one whole-array function; the
  ten tiles cover the array, so the array ends holding that function.
-/
import proofs.«137388_j90374701843042_1_alg».proof.Proof.Gen.KernelIdeal.Frame
import proofs.«137388_j90374701843042_1_alg».proof.Proof.Payloads
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Layers Cert.RowTile Cert.KernelIdeal.Tile

variable (V : (c : Dev nD) → (b : Ref sig .tc) → Buf (Elt Ideal) ((c : Thread nD τ).loc b))

/-- The classification head on the whole array: the aggregated rows plus the first bias row, times the weight matrix,
    plus the second bias row. -/
def out (a : S50000x128.Idx → EReal) (br : S1x128.Idx → EReal) (w : S128x8.Idx → EReal) (fr : S1x8.Idx → EReal) :
    S50000x8.Idx → EReal :=
  addRow (M := 50000) (N := 8) (rowsTimes (M := 50000) (K := 128) (N := 8) (addRow (M := 50000) (N := 128) a (rowVec br)) w) (rowVec fr)

/-- Row p of a tile whose row p is row r of the array yields row r of the whole-array head. -/
theorem tile_eq (A : S50000x128.Idx → EReal) (X0 : S5000x128.Idx → EReal) (b1 : S1x128.Idx → EReal) (w : S128x8.Idx → EReal)
    (b2 : S1x8.Idx → EReal) (p : Fin 5000) (q : Fin 8) (r : Fin 50000) (hrow : ∀ k : Fin 128, X0 (ix2 p k) = A (ix2 r k)) :
    addRow (M := 5000) (N := 8) (rowsTimes (M := 5000) (K := 128) (N := 8) (addRow (M := 5000) (N := 128) X0 (rowVec b1)) w) (rowVec b2) (ix2 p q)
      = out A b1 w b2 (ix2 r q) :=
  addRow_row _ _ _ p r q (rowsTimes_row _ _ w p r (fun k => addRow_row _ _ _ p r k (hrow k)) q)

/-- The printed index maps over the grid: the row tiles move with the point, everything else stays at block 0. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The loaded tile of aggregated rows: its row p is row 5000·t + p of the array. -/
theorem blk0_apply (c : Dev nD) (t : Fin cfg1.N) (p : Fin 5000) (k : Fin 128) (r : Fin 50000) (hr : r.val = 5000 * t.val + p.val) :
    (iblk1 V c 0 t : S5000x128.Idx → EReal) (ix2 p k) = (V c main_v44 : S50000x128.Idx → EReal) (ix2 r k) := by
  obtain ⟨e0, e1, -⟩ := idx t
  unfold iblk1
  rw [View.read_apply]
  show (V c main_v44 : S50000x128.Idx → EReal) _ = (V c main_v44 : S50000x128.Idx → EReal) _
  refine congrArg (V c main_v44 : S50000x128.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The first bias row is loaded whole at every point. -/
theorem blk1_eq (c : Dev nD) (t : Fin cfg1.N) : (iblk1 V c 1 t : S1x128.Idx → EReal) = (V c main_v45 : S1x128.Idx → EReal) := by
  obtain ⟨-, -, e0, e1, -⟩ := idx t
  funext x
  unfold iblk1
  rw [View.read_apply]
  show (V c main_v45 : S1x128.Idx → EReal) _ = (V c main_v45 : S1x128.Idx → EReal) x
  refine congrArg (V c main_v45 : S1x128.Idx → EReal) ?_
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- The weight matrix is loaded whole at every point. -/
theorem blk2_eq (c : Dev nD) (t : Fin cfg1.N) : (iblk1 V c 2 t : S128x8.Idx → EReal) = (V c main_v47 : S128x8.Idx → EReal) := by
  obtain ⟨-, -, -, -, e0, e1, -⟩ := idx t
  funext x
  unfold iblk1
  rw [View.read_apply]
  show (V c main_v47 : S128x8.Idx → EReal) _ = (V c main_v47 : S128x8.Idx → EReal) x
  refine congrArg (V c main_v47 : S128x8.Idx → EReal) ?_
  funext a
  apply Fin.ext
  match a with
  | ⟨0, _⟩ => show win1_2.index t (0 : Fin 2) * 128 + 1 * (x 0).val = (x 0).val; rw [e0]; omega
  | ⟨1, _⟩ => show win1_2.index t (1 : Fin 2) * 8 + 1 * (x 1).val = (x 1).val; rw [e1]; omega

/-- The second bias row is loaded whole at every point. -/
theorem blk3_eq (c : Dev nD) (t : Fin cfg1.N) : (iblk1 V c 3 t : S1x8.Idx → EReal) = (V c main_v46 : S1x8.Idx → EReal) := by
  obtain ⟨-, -, -, -, -, -, e0, e1, -⟩ := idx t
  funext x
  unfold iblk1
  rw [View.read_apply]
  show (V c main_v46 : S1x8.Idx → EReal) _ = (V c main_v46 : S1x8.Idx → EReal) x
  refine congrArg (V c main_v46 : S1x8.Idx → EReal) ?_
  funext a
  apply Fin.ext
  match a with
  | ⟨0, _⟩ => show win1_3.index t (0 : Fin 2) * 1 + 1 * (x 0).val = (x 0).val; rw [e0]; omega
  | ⟨1, _⟩ => show win1_3.index t (1 : Fin 2) * 8 + 1 * (x 1).val = (x 1).val; rw [e1]; omega

/-- What point t writes back is tile t of the whole-array head of the arrays the region finds. -/
theorem flushed_eq (c : Dev nD) (t : Fin cfg1.N) :
    (dat1 V c).flushed 4 t
      = ((cfg1.win 4).blk t).view.read (Elt Ideal) (out (V c main_v44) (V c main_v45) (V c main_v47) (V c main_v46)) := by
  have ht : t.val < 10 := Nat.lt_of_lt_of_eq t.isLt (show cfg1.N = 10 from N_1)
  obtain ⟨-, -, -, -, -, -, -, -, e8, e9⟩ := idx t
  show (cfg1.win 4).cut (grid1.coords t) ((dat1 V c).after 4 t) = _
  rw [after1_4]
  unfold out1_4
  rw [View.canon_unit_zero zeros2]
  simp only [View.ld_unit_zero (S := S5000x128) zeros2, View.ld_unit_zero (S := S1x128) zeros2,
    View.ld_unit_zero (S := S128x8) zeros2, View.ld_unit_zero (S := S1x8) zeros2]
  funext j
  rw [View.read_apply]
  show k1_pay1 (F := Ideal) (iblk1 V c 0 t) (iblk1 V c 1 t) (iblk1 V c 2 t) (iblk1 V c 3 t) j
    = out (V c main_v44) (V c main_v45) (V c main_v47) (V c main_v46) (((cfg1.win 4).blk t).view.emb j)
  refine (congrFun (pay1_eq (iblk1 V c 0 t) (iblk1 V c 1 t) (iblk1 V c 2 t) (iblk1 V c 3 t)) j).trans ?_
  rw [blk1_eq V c t, blk2_eq V c t, blk3_eq V c t]
  obtain ⟨p, q, rfl⟩ : ∃ (p : Fin 5000) (q : Fin 8), j = ix2 p q := ⟨j 0, j 1, eq_ix2 j⟩
  have hemb : ((cfg1.win 4).blk t).view.emb (ix2 p q) = (ix2 (⟨5000 * t.val + p.val, by omega⟩ : Fin 50000) q : S50000x8.Idx) := by
    funext a
    apply Fin.ext
    match a with
    | ⟨0, _⟩ => show win1_4.index t (0 : Fin 2) * 5000 + 1 * p.val = 5000 * t.val + p.val; rw [e8]; omega
    | ⟨1, _⟩ => show win1_4.index t (1 : Fin 2) * 8 + 1 * q.val = q.val; rw [e9]; omega
  rw [hemb]
  exact tile_eq _ _ _ _ _ p q _ (fun k => blk0_apply V c t p k _ rfl)

/-- An index of the result array is in point t's tile iff each coordinate is in the tile's range on its axis. -/
theorem mem_blk (t : Fin cfg1.N) (i : S50000x8.Idx) :
    i ∈ ((cfg1.win 4).blk t).view.set ↔ ∀ a : Fin 2, win1_4.index t a * S5000x8.size a ≤ (i a).val
      ∧ (i a).val < win1_4.index t a * S5000x8.size a + S5000x8.size a := by
  show i ∈ ((View.whole main_v48).slice (win1_4.rect t)).set ↔ _
  rw [View.set_slice_whole, Rect.mem_set_unit]
  exact Iff.rfl

/-- Every row of the result lies in the tile of the point row / 5000. -/
theorem cover (i : S50000x8.Idx) : ∃ t : Fin cfg1.N, (cfg1.win 4).flush t = true ∧ i ∈ ((cfg1.win 4).blk t).view.set := by
  have hi0 : (i 0).val < 50000 := (i 0).isLt
  have hi1 : (i 1).val < 8 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, -, -, -, -, e8, e9⟩ := idx t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e8, htv]; omega
  | ⟨1, _⟩ =>
    show win1_4.index t (1 : Fin 2) * 8 ≤ (i 1).val ∧ (i 1).val < win1_4.index t (1 : Fin 2) * 8 + 8
    rw [e9]; omega

/-- After the region the result array is the whole-array head of the arrays the region found. -/
theorem final (c : Dev nD) :
    (dat1 V c).arrAt 4 cfg1.N = out (V c main_v44) (V c main_v45) (V c main_v47) (V c main_v46) :=
  (dat1 V c).arrAt_eq_of_cover 4 _ (fun t _ => flushed_eq V c t) cover

end Cert.KernelIdeal.Region1

end
-- ==== Proof.Stages.lean ====
/-
  The kernel program's result array as one function of its arguments.

  Reading the buffer contents boundary by boundary: before the first region the host has computed the edges' sources,
  targets and normalisation from the edge list and has rounded the first weight matrix (the identity over the extended
  reals); the first region leaves the node features times that matrix; the host then runs the propagation step on it and
  stands the two bias vectors up as rows; the second region leaves the classification head of those. Composed: the
  result is the head of the propagated dense transform of the arguments.
-/
import proofs.«137388_j90374701843042_1_alg».proof.Proof.Gen.KernelIdeal.Frame
import proofs.«137388_j90374701843042_1_alg».proof.Proof.EdgeK
import proofs.«137388_j90374701843042_1_alg».proof.Proof.Region0
import proofs.«137388_j90374701843042_1_alg».proof.Proof.Region1
import proofs.«137388_j90374701843042_1_alg».proof.Proof.LibRowLayers
import proofs.«137388_j90374701843042_1_alg».proof.Proof.LibRowTile
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.KernelIdeal.Edge Cert.Layers Cert.RowTile

variable (m : (ℓ : Loc nD τ sig) → Buf (Elt Ideal) ℓ) (ρ : Dev nD → PrngReg)

/-- The whole network on whole arrays: node features times the first weight matrix, propagated along the edges, plus the
    first bias, times the second weight matrix, plus the second bias. -/
def net (x : S50000x512.Idx → EReal) (E : EdgeIx) (wc : S512x128.Idx → EReal) (bc : S128.Idx → EReal)
    (wf : S128x8.Idx → EReal) (bf : S8.Idx → EReal) : S50000x8.Idx → EReal :=
  addRow (M := 50000) (N := 8) (rowsTimes (M := 50000) (K := 128) (N := 8)
    (addRow (M := 50000) (N := 128) (agg E (rowsTimes (M := 50000) (K := 512) (N := 128) x wc)) bc) wf) bf

/-! ## Before the first region -/

theorem W3_v3 (c : Dev nD) : W3 m ρ c (Proc.devRef .tc main_v3) = src (m ((c : Thread nD τ).loc main_arg1)) := by
  show StableHlo.after hostOps0_2 (StableHlo.after hostOps0_1 (StableHlo.after hostOps0 (W0 m ρ c))) (Proc.devRef .tc main_v3) = _
  after_results_simp
  unfold src
  rfl

theorem W3_v6 (c : Dev nD) : W3 m ρ c (Proc.devRef .tc main_v6) = dst (m ((c : Thread nD τ).loc main_arg1)) := by
  show StableHlo.after hostOps0_2 (StableHlo.after hostOps0_1 (StableHlo.after hostOps0 (W0 m ρ c))) (Proc.devRef .tc main_v6) = _
  after_results_simp
  unfold dst
  rfl

/-! The normalisation is read one stretch of host operations at a time, each stretch over arbitrary earlier contents. -/

/-- What is left of a line's results after the one-pass reading: each remaining operation's result at its own buffer is its
    function's value, at any other buffer what was there. -/
macro "results_rw" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- The select that makes the inverse square-root degrees, over whatever the buffers before it hold. -/
theorem where_at (X : Valuation τ sig (Elt Ideal)) :
    StableHlo.after (hostOps0_1 (F := Ideal)) X (Proc.devRef .tc main_v14)
      = select (X (Proc.devRef .tc main_v12)) (X (Proc.devRef .tc main_v13))
          (broadcastInDim S50000 ![] bcast_S_S50000 (id (X (Proc.devRef .tc main_cst_2)))) := by
  after_results_simp
  rfl

/-- The edge normalisation, over whatever the buffers before it hold: the two end points' entries multiplied. -/
theorem norm_at (X : Valuation τ sig (Elt Ideal)) :
    StableHlo.after (hostOps0_2 (F := Ideal)) X (Proc.devRef .tc main_v29)
      = (mulf (Host.gather gather_S50000_S690000x1_S690000_n_0_n_n_0_1_1 (X (Proc.devRef .tc main_v14) : FVec Ideal S50000 .f32)
            (broadcastInDim S690000x1 ![0] bcast_S690000_S690000x1_0 (wrap (X (Proc.devRef .tc main_v3)))))
          (Host.gather gather_S50000_S690000x1_S690000_n_0_n_n_0_1_1 (X (Proc.devRef .tc main_v14) : FVec Ideal S50000 .f32)
            (broadcastInDim S690000x1 ![0] bcast_S690000_S690000x1_0 (wrap (X (Proc.devRef .tc main_v6))))) : FVec Ideal S690000 .f32) := by
  after_results_simp
  unfold wrap
  rfl

theorem W1_v12 (c : Dev nD) :
    W1 m ρ c (Proc.devRef .tc main_v12)
      = cmpf (F := Ideal) .ogt (deg (m ((c : Thread nD τ).loc main_arg1)))
          (broadcastInDim S50000 ![] bcast_S_S50000 (constant (F := Ideal) S_ .f32 0x00000000#32)) := by
  show StableHlo.after hostOps0 (W0 m ρ c) (Proc.devRef .tc main_v12) = _
  after_results_simp
  results_rw
  unfold deg dst
  rfl

theorem W1_v13 (c : Dev nD) :
    W1 m ρ c (Proc.devRef .tc main_v13) = Host.rsqrt (F := Ideal) (deg (m ((c : Thread nD τ).loc main_arg1))) := by
  show StableHlo.after hostOps0 (W0 m ρ c) (Proc.devRef .tc main_v13) = _
  after_results_simp
  results_rw
  unfold deg dst
  rfl

theorem W1_cst2 (c : Dev nD) :
    W1 m ρ c (Proc.devRef .tc main_cst_2) = constant (F := Ideal) S_ .f32 0x00000000#32 := by
  show StableHlo.after hostOps0 (W0 m ρ c) (Proc.devRef .tc main_cst_2) = _
  after_results_simp <;> rfl

theorem W2_v14 (c : Dev nD) : W2 m ρ c (Proc.devRef .tc main_v14) = dinv (m ((c : Thread nD τ).loc main_arg1)) := by
  show StableHlo.after hostOps0_1 (W1 m ρ c) (Proc.devRef .tc main_v14) = _
  rw [where_at (W1 m ρ c), W1_v12, W1_v13, W1_cst2]
  rfl

theorem W2_v3 (c : Dev nD) : W2 m ρ c (Proc.devRef .tc main_v3) = src (m ((c : Thread nD τ).loc main_arg1)) := by
  show StableHlo.after hostOps0_1 (StableHlo.after hostOps0 (W0 m ρ c)) (Proc.devRef .tc main_v3) = _
  after_results_simp
  unfold src
  rfl

theorem W2_v6 (c : Dev nD) : W2 m ρ c (Proc.devRef .tc main_v6) = dst (m ((c : Thread nD τ).loc main_arg1)) := by
  show StableHlo.after hostOps0_1 (StableHlo.after hostOps0 (W0 m ρ c)) (Proc.devRef .tc main_v6) = _
  after_results_simp
  unfold dst
  rfl

theorem W3_v29 (c : Dev nD) : W3 m ρ c (Proc.devRef .tc main_v29) = Edge.norm (m ((c : Thread nD τ).loc main_arg1)) := by
  show StableHlo.after hostOps0_2 (W2 m ρ c) (Proc.devRef .tc main_v29) = _
  rw [norm_at (W2 m ρ c), W2_v14, W2_v3, W2_v6]
  rfl

/-- The first weight matrix as the first region finds it: its rounding to the narrower format is the identity. -/
theorem W3_v30 (c : Dev nD) :
    (W3 m ρ c (Proc.devRef .tc main_v30) : S512x128.Idx → EReal) = (m ((c : Thread nD τ).loc main_arg2) : S512x128.Idx → EReal) := by
  show (StableHlo.after hostOps0_2 (StableHlo.after hostOps0_1 (StableHlo.after hostOps0 (W0 m ρ c))) (Proc.devRef .tc main_v30) : S512x128.Idx → EReal) = _
  after_results_simp <;> rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## After the first region -/

/-- The first region leaves the node features times the first weight matrix. -/
theorem W4_v31 (c : Dev nD) :
    W4 m ρ c (Proc.devRef .tc main_v31)
      = rowsTimes (M := 50000) (K := 512) (N := 128) (m ((c : Thread nD τ).loc main_arg0)) (m ((c : Thread nD τ).loc main_arg2)) := by
  have h : W4 m ρ c (Proc.devRef .tc main_v31) = (dat0 (V3 m ρ) c).arrAt 2 cfg0.N := W4_arr m ρ c 2
  have h0 : V3 m ρ c main_arg0 = m ((c : Thread nD τ).loc main_arg0) := W3_arg0 m ρ c
  have h30 : (V3 m ρ c main_v30 : S512x128.Idx → EReal) = (m ((c : Thread nD τ).loc main_arg2) : S512x128.Idx → EReal) := W3_v30 m ρ c
  rw [h, Region0.final (V3 m ρ) c, h0, h30]
  rfl

/-! ## Before the second region -/

/-- The host's propagation step on the first region's result. -/
theorem W5_v44 (c : Dev nD) :
    W5 m ρ c (Proc.devRef .tc main_v44) = agg (m ((c : Thread nD τ).loc main_arg1)) (W4 m ρ c (Proc.devRef .tc main_v31)) := by
  show StableHlo.after hostOps1 (W4 m ρ c) (Proc.devRef .tc main_v44) = _
  after_results_simp
  rw [W4_of_ne m ρ c main_v3 (by decide), W4_of_ne m ρ c main_v6 (by decide), W4_of_ne m ρ c main_v29 (by decide),
    W3_v3, W3_v6, W3_v29]
  unfold agg
  rfl

theorem W5_v45 (c : Dev nD) :
    W5 m ρ c (Proc.devRef .tc main_v45) = shapeCast S1x128 (m ((c : Thread nD τ).loc main_arg3)) shapeCasts_S128_S1x128 := by
  show StableHlo.after hostOps1 (W4 m ρ c) (Proc.devRef .tc main_v45) = _
  after_results_simp
  rw [W4_of_ne m ρ c main_arg3 (by decide), W3_arg3]
  rfl

theorem W5_v46 (c : Dev nD) :
    W5 m ρ c (Proc.devRef .tc main_v46) = shapeCast S1x8 (m ((c : Thread nD τ).loc main_arg5)) shapeCasts_S8_S1x8 := by
  show StableHlo.after hostOps1 (W4 m ρ c) (Proc.devRef .tc main_v46) = _
  after_results_simp
  rw [W4_of_ne m ρ c main_arg5 (by decide), W3_arg5]
  rfl

/-- The second weight matrix as the second region finds it: its rounding to the narrower format is the identity. -/
theorem W5_v47 (c : Dev nD) :
    (W5 m ρ c (Proc.devRef .tc main_v47) : S128x8.Idx → EReal) = (m ((c : Thread nD τ).loc main_arg4) : S128x8.Idx → EReal) := by
  show (StableHlo.after hostOps1 (W4 m ρ c) (Proc.devRef .tc main_v47) : S128x8.Idx → EReal) = _
  after_results_simp
  rw [W4_of_ne m ρ c main_arg4 (by decide), W3_arg4]
  rfl

/-! ## After the second region -/

/-- The program's result array is the whole network of its arguments. -/
theorem W6_v48 (c : Dev nD) :
    W6 m ρ c (Proc.devRef .tc main_v48)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h : W6 m ρ c (Proc.devRef .tc main_v48) = (dat1 (V5 m ρ) c).arrAt 4 cfg1.N := W6_arr m ρ c 4
  have e44 : V5 m ρ c main_v44 = agg (m ((c : Thread nD τ).loc main_arg1)) (W4 m ρ c (Proc.devRef .tc main_v31)) := W5_v44 m ρ c
  have e45 : V5 m ρ c main_v45 = shapeCast S1x128 (m ((c : Thread nD τ).loc main_arg3)) shapeCasts_S128_S1x128 := W5_v45 m ρ c
  have e46 : V5 m ρ c main_v46 = shapeCast S1x8 (m ((c : Thread nD τ).loc main_arg5)) shapeCasts_S8_S1x8 := W5_v46 m ρ c
  have e47 : (V5 m ρ c main_v47 : S128x8.Idx → EReal) = (m ((c : Thread nD τ).loc main_arg4) : S128x8.Idx → EReal) := W5_v47 m ρ c
  rw [h, Region1.final (V5 m ρ) c, e44, e45, e46, e47, W4_v31]
  unfold Region1.out net
  rw [rowVec_shapeCast, rowVec_shapeCast]

end Cert.KernelIdeal.Stages

end
-- ==== Proof.EdgeR.lean ====
/-
  The graph side of the reference program, named: from the edge list, the source and target node of every edge (self
  loops appended), the degrees, the edge normalisation, and the propagation step that gathers, scales and adds feature
  rows along the edges. These are the program's own host operations composed; nothing here opens them.
-/
import proofs.«137388_j90374701843042_1_alg».proof.Proof.Gen.ReferenceIdeal
import Idealize.ShloMosaic.PureOps.Ideal

noncomputable section

namespace Cert.ReferenceIdeal.Edge

open Idealize.ShloMosaic Cert.ReferenceIdeal Cert.ReferenceIdeal.Gen

/-- The edge list as the program receives it: two rows of 640000 node numbers. -/
abbrev EdgeIx : Type := (⟨S2x640000, .i32⟩ : BufTy).Contents (Elt Ideal)

/-- Source nodes: the first row of the edge list followed by every node once (the self loops). -/
def src (E : EdgeIx) :=
  concatenate S690000 0 [⟨S640000, shapeCast _ (extractStridedSlice S1x640000 ![0, 0] E slices_S2x640000_S1x640000_0_0) shapeCasts_S1x640000_S640000⟩, ⟨S50000, iotaInDim S50000 32 0⟩] concatenates_S640000_S50000_S690000_d0

/-- Target nodes: the second row of the edge list followed by every node once. -/
def dst (E : EdgeIx) :=
  concatenate S690000 0 [⟨S640000, shapeCast _ (extractStridedSlice S1x640000 ![1, 0] E slices_S2x640000_S1x640000_1_0) shapeCasts_S1x640000_S640000⟩, ⟨S50000, iotaInDim S50000 32 0⟩] concatenates_S640000_S50000_S690000_d0

/-- In-degree with self loops: one added at each edge's target. -/
def deg (E : EdgeIx) : FVec Ideal S50000 .f32 :=
  Host.scatterAdd (F := Ideal) scatter_S50000_S690000x1_S690000_n_0_0_1
    (broadcastInDim S50000 ![] bcast_S_S50000 (constant (F := Ideal) S_ .f32 0x00000000#32))
    (broadcastInDim S690000x1 ![0] bcast_S690000_S690000x1_0 (dst E))
    (broadcastInDim S690000 ![] bcast_S_S690000 (constant (F := Ideal) S_ .f32 0x3F800000#32))

/-- The inverse square root of the degree where it is positive, zero elsewhere. -/
def dinv (E : EdgeIx) : FVec Ideal S50000 .f32 :=
  select (cmpf (F := Ideal) .ogt (deg E) (broadcastInDim S50000 ![] bcast_S_S50000 (constant (F := Ideal) S_ .f32 0x00000000#32)))
    (Host.rsqrt (F := Ideal) (deg E))
    (broadcastInDim S50000 ![] bcast_S_S50000 (id (constant (F := Ideal) S_ .f32 0x00000000#32)))

/-- A negative node number counted from the end, as array indexing reads it. -/
def wrap (v : (⟨S690000, .i32⟩ : BufTy).Contents (Elt Ideal)) :=
  select (cmpi .slt v (broadcastInDim S690000 ![] bcast_S_S690000 (constantI S_ 32 0#32)))
    (addi v (broadcastInDim S690000 ![] bcast_S_S690000 (constantI S_ 32 50000#32))) v

/-- The symmetric normalisation of each edge: the two end points' inverse square-root degrees multiplied. -/
def norm (E : EdgeIx) : FVec Ideal S690000 .f32 :=
  mulf (Host.gather gather_S50000_S690000x1_S690000_n_0_n_n_0_1_1 (dinv E)
        (broadcastInDim S690000x1 ![0] bcast_S690000_S690000x1_0 (wrap (src E))))
    (Host.gather gather_S50000_S690000x1_S690000_n_0_n_n_0_1_1 (dinv E)
        (broadcastInDim S690000x1 ![0] bcast_S690000_S690000x1_0 (wrap (dst E))))

/-- The propagation step: every edge carries its source's feature row, scaled by the edge's normalisation, to its
    target, where the arriving rows are added up. -/
def agg (E : EdgeIx) (h : FVec Ideal S50000x128 .f32) : FVec Ideal S50000x128 .f32 :=
  Host.scatterAdd (F := Ideal) scatter_S50000x128_S690000x1_S690000x128_1_0_0_1
    (broadcastInDim S50000x128 ![] bcast_S_S50000x128 (constant (F := Ideal) S_ .f32 0x00000000#32))
    (broadcastInDim S690000x1 ![0] bcast_S690000_S690000x1_0 (dst E))
    (mulf (Host.gather gather_S50000x128_S690000x1_S690000x128_1_0_n_n_0_1_1128 h
        (broadcastInDim S690000x1 ![0] bcast_S690000_S690000x1_0 (wrap (src E))))
      (broadcastInDim S690000x128 ![0, 1] bcast_S690000x1_S690000x128_0_1
        (broadcastInDim S690000x1 ![0] bcast_S690000_S690000x1_0 (norm E))))

end Cert.ReferenceIdeal.Edge

end
-- ==== Proof.RefValue.lean ====
/-
  The reference program's result as one function of its arguments.

  The reference's run ends with its result at the composed term of its host operations. Folded: the node features times
  the first weight matrix (a host product), the propagation step on that, the first bias vector repeated down the rows
  and added, times the second weight matrix (a host product), the second bias vector repeated down the rows and added.
  A host product with these dimension numbers is the plain rows-by-columns sum, and adding a vector repeated down the
  rows adds its entry q in column q: the whole network on whole arrays.
-/
import proofs.«137388_j90374701843042_1_alg».proof.Proof.RefRun
import proofs.«137388_j90374701843042_1_alg».proof.Proof.EdgeR
import proofs.«137388_j90374701843042_1_alg».proof.Proof.LibPlainDot
import proofs.«137388_j90374701843042_1_alg».proof.Proof.LibRowLayers

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.ValueP Cert.ReferenceIdeal.Edge Cert.Layers

theorem plainA : LibPlainDot.Plain dot_S50000x512_S512x128_S50000x128_1_0_0_1_n_n := ⟨rfl, rfl, rfl, rfl, rfl, rfl⟩
theorem plainB : LibPlainDot.Plain dot_S50000x128_S128x8_S50000x8_1_0_0_1_n_n := ⟨rfl, rfl, rfl, rfl, rfl, rfl⟩

/-- The whole network on whole arrays: node features times the first weight matrix, propagated along the edges, plus the
    first bias, times the second weight matrix, plus the second bias. -/
def net (x : S50000x512.Idx → EReal) (E : EdgeIx) (wc : S512x128.Idx → EReal) (bc : S128.Idx → EReal)
    (wf : S128x8.Idx → EReal) (bf : S8.Idx → EReal) : S50000x8.Idx → EReal :=
  addRow (M := 50000) (N := 8) (rowsTimes (M := 50000) (K := 128) (N := 8)
    (addRow (M := 50000) (N := 128) (agg E (rowsTimes (M := 50000) (K := 512) (N := 128) x wc)) bc) wf) bf

variable (m : (ℓ : Loc nD τ sig) → Buf (Elt Ideal) ℓ)

/-- The run's composed term with the graph side folded into the propagation step. -/
theorem res_fold (c : Dev nD) :
    res_main_v50 (F := Ideal) m c
      = addf (Host.dotGeneral (F := Ideal) (φ₁ := .f32) (φ₂ := .f32) dot_S50000x128_S128x8_S50000x8_1_0_0_1_n_n none
          (addf (agg (m ((c.tc : Thread nD τ).loc main_arg1))
              (Host.dotGeneral (F := Ideal) (φ₁ := .f32) (φ₂ := .f32) dot_S50000x512_S512x128_S50000x128_1_0_0_1_n_n none
                (m ((c.tc : Thread nD τ).loc main_arg0)) (m ((c.tc : Thread nD τ).loc main_arg2))))
            (broadcastInDim S50000x128 ![0, 1] bcast_S1x128_S50000x128_0_1
              (broadcastInDim S1x128 ![1] bcast_S128_S1x128_1 (m ((c.tc : Thread nD τ).loc main_arg3)))))
          (m ((c.tc : Thread nD τ).loc main_arg4)))
        (broadcastInDim S50000x8 ![0, 1] bcast_S1x8_S50000x8_0_1
          (broadcastInDim S1x8 ![1] bcast_S8_S1x8_1 (m ((c.tc : Thread nD τ).loc main_arg5)))) := by
  unfold res_main_v50
  rfl

/-- The reference's result is the whole network of its arguments. -/
theorem res_eq (c : Dev nD) :
    res_main_v50 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_fold]
  unfold Host.dotGeneral
  rw [dotGeneral_eq _ plainA, addf_rows_of_vector, dotGeneral_eq _ plainB, addf_rows_of_vector]
  rfl

end Cert.ReferenceIdeal.RefValue

end
-- ==== Proof.EdgeSame.lean ====
/-
  The two programs' graph sides are one function.

  Both programs compute sources, targets, degrees, edge normalisation and the propagation step with the same host
  operations in the same order on the same literals; the two printed texts differ only in the names of their shape
  records. So the propagation step of one program IS that of the other, on any edge list and any feature array.
-/
import proofs.«137388_j90374701843042_1_alg».proof.Proof.EdgeK
import proofs.«137388_j90374701843042_1_alg».proof.Proof.EdgeR

noncomputable section

namespace Cert.EdgeSame

open Idealize.ShloMosaic

/-- The kernel program's propagation step is the reference's. -/
theorem agg_eq (E : Cert.KernelIdeal.Edge.EdgeIx) (h : FVec Ideal Cert.KernelIdeal.S50000x128 .f32) :
    Cert.KernelIdeal.Edge.agg E h = Cert.ReferenceIdeal.Edge.agg E h := rfl

end Cert.EdgeSame

end
-- ==== Proof.lean ====
/-
  A two-layer graph-convolution classifier: the kernel program against its plain reference, over the extended reals.

  Both programs compute, for 50000 nodes with 512 features and 690000 edges (640000 given, one self loop per node),
      out = (P (x · W₁) + b₁) · W₂ + b₂,
  where P propagates feature rows along the edges: row s, scaled by the edge's symmetric normalisation
  d(s)^(-1/2) · d(t)^(-1/2) (d the in-degree with self loops), is added into row t.

  The kernel program computes x · W₁ in a pipelined region, 2000 rows at a time, runs P on the host, and computes
  (· + b₁) · W₂ + b₂ in a second pipelined region, 5000 rows at a time; the matrix operands pass through a narrower
  float format on the way, which over the extended reals is the identity. The reference does everything on the host.
  An entry of a matrix product or of a bias step depends only on its own row of the left operand, so the row tiles are
  restrictions of the whole-array functions and cover the arrays; a product into a zero accumulator and the host's
  product are the same rows-by-columns sum. The propagation P is the same host operations on both sides and is carried
  as one function, never opened. No algebraic law is used beyond these identities, so the finiteness of the inputs is
  not needed.

  The idealisation rewrote nothing, so the second-to-last conjunct is trivial; the three frame conjuncts are the
  generated frames (for the reference: its run with the result dropped).
-/
import proofs.«137388_j90374701843042_1_alg».proof.Defs
import proofs.«137388_j90374701843042_1_alg».proof.Proof.Gen.Kernel
import proofs.«137388_j90374701843042_1_alg».proof.Proof.Gen.Kernel.Skeleton
import proofs.«137388_j90374701843042_1_alg».proof.Proof.Gen.Kernel.Launch
import proofs.«137388_j90374701843042_1_alg».proof.Proof.Gen.Kernel.Points
import proofs.«137388_j90374701843042_1_alg».proof.Proof.Gen.Kernel.Frame
import proofs.«137388_j90374701843042_1_alg».proof.Proof.Gen.KernelIdeal
import proofs.«137388_j90374701843042_1_alg».proof.Proof.Gen.KernelIdeal.Skeleton
import proofs.«137388_j90374701843042_1_alg».proof.Proof.Gen.KernelIdeal.Launch
import proofs.«137388_j90374701843042_1_alg».proof.Proof.Gen.KernelIdeal.Points
import proofs.«137388_j90374701843042_1_alg».proof.Proof.Gen.KernelIdeal.Frame
import proofs.«137388_j90374701843042_1_alg».proof.Proof.Gen.ReferenceIdeal
import proofs.«137388_j90374701843042_1_alg».proof.Proof.Gen.Pre_finite_inputs
import proofs.«137388_j90374701843042_1_alg».proof.Proof.KernelRun
import proofs.«137388_j90374701843042_1_alg».proof.Proof.Stages
import proofs.«137388_j90374701843042_1_alg».proof.Proof.RefRun
import proofs.«137388_j90374701843042_1_alg».proof.Proof.RefValue
import proofs.«137388_j90374701843042_1_alg».proof.Proof.EdgeSame
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the whole network of the (agreeing) arguments: the kernel program by its two regions' tiles
    and the host's propagation between them, the reference by its host operations; the two propagation steps are one
    function. -/
theorem algebraic : Cert.algebraic_KernelIdeal_ReferenceIdeal := by
  intro m ρ m' ρ' _ hagree
  refine ⟨fun c => Cert.KernelIdeal.Stages.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.W6_v48 m ρ c), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.RefValue.res_eq m' c, a0, a1, a2, a3, a4, a5]
    unfold Cert.ReferenceIdeal.RefValue.net Cert.KernelIdeal.Stages.net
    beta_reduce
    rw [Cert.EdgeSame.agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
